-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S100000x5 : Shape := ⟨2, ![100000, 5]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel
  bcast_S_S100000x5 : S_.BroadcastsInDim S100000x5 (![] : Fin 0 → Fin S100000x5.rank)
  reducesTo_S100000x5_S_d0_1 : S100000x5.ReducesTo [0, 1] S_

variable [Facts]

def fn {F : FTy → Type} [FloatOps F] (main_arg0 : FVec F S16777216 .f32) (main_arg1 : IVec S16777216 32) (main_arg2 : FVec F S100000x5 .f32) (main_arg3 : IVec S16777216 32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S100000x5 .f32 := Host.absf main_arg2
  let main_cst_0 : FVec F S_ .f32 := constant S_ .f32 0x7F800000#32
  let main_v5 : FVec F S100000x5 .f32 := broadcastInDim S100000x5 ![] bcast_S_S100000x5 main_cst_0
  let main_v6 : IVec S100000x5 1 := cmpf .olt main_v4 main_v5
  let main_c_1 : IVec S_ 1 := constantI S_ 1 1#1
  let main_v7 : IVec S_ 1 := (fun x v => Host.reduce IntOp.andi x v reducesTo_S100000x5_S_d0_1 h_S_) main_v6 main_c_1
  let main_v8 : IVec S_ 1 := andi main_v3 main_v7
  main_v8
-- ==== Kernel.lean ====
abbrev S16777216 : Shape := ⟨1, ![16777216]⟩
abbrev S100000x5 : Shape := ⟨2, ![100000, 5]⟩
abbrev S_ : Shape := ⟨0, ![]⟩
abbrev S16777216x1 : Shape := ⟨2, ![16777216, 1]⟩
abbrev S16777216x2 : Shape := ⟨2, ![16777216, 2]⟩
abbrev S131072x128 : Shape := ⟨2, ![131072, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩

abbrev nBuf : Space → Nat
  | .hbm => 27
  | .vmem => 8
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S100000x5, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S16777216x1, .i32⟩
  | .hbm, ⟨19, _⟩ => ⟨S16777216x1, .i32⟩
  | .hbm, ⟨20, _⟩ => ⟨S16777216x2, .i32⟩
  | .hbm, ⟨21, _⟩ => ⟨S16777216, .f32⟩
  | .hbm, ⟨22, _⟩ => ⟨S131072x128, .f32⟩
  | .hbm, ⟨23, _⟩ => ⟨S131072x128, .i32⟩
  | .hbm, ⟨24, _⟩ => ⟨S131072x128, .f32⟩
  | .hbm, ⟨25, _⟩ => ⟨S1x1, .f32⟩
  | .hbm, ⟨26, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .i32⟩
  | .local _ .vmem, ⟨3, _⟩ => ⟨S8192x128, .i32⟩
  | .local _ .vmem, ⟨4, _⟩ => ⟨S8192x128, .f32⟩
  | .local _ .vmem, ⟨5, _⟩ => ⟨S8192x128, .f32⟩
  | .local _ .vmem, ⟨6, _⟩ => ⟨S1x1, .f32⟩
  | .local _ .vmem, ⟨7, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v22 : BitVec 1 := Scalar.cmpi .eq arg0 c15_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  gather_S100000x5_S16777216x2_S16777216_n_01_n_n_01_1_11_wf : GatherDims.WF S100000x5 S16777216x2 S16777216 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .i32 = 32 ∨ (Rect.block (s := S131072x128) S8192x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S100000x5_S16777216x2_S16777216_n_01_n_n_01_1_11 : GatherDims S100000x5 S16777216x2 S16777216 where
  offsetDims := []
  collapsedSliceDims := [0, 1]
  operandBatchingDims := []
  startIndicesBatchingDims := []
  startIndexMap := [0, 1]
  indexVectorDim := 1
  sliceSizes := ![1, 1]
  wf := gather_S100000x5_S16777216x2_S16777216_n_01_n_n_01_1_11_wf

abbrev win0_0 : Pipeline.Window sig grid0 :=
  Pipeline.Window.ofSpec (Memref.whole main_v14) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16777216 : Shape := ⟨1, ![16777216]⟩
abbrev S100000x5 : Shape := ⟨2, ![100000, 5]⟩
abbrev S_ : Shape := ⟨0, ![]⟩
abbrev S16777216x1 : Shape := ⟨2, ![16777216, 1]⟩
abbrev S16777216x2 : Shape := ⟨2, ![16777216, 2]⟩

abbrev nBuf : Space → Nat
  | .hbm => 28
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .i32⟩
  | .hbm, ⟨2, _⟩ => ⟨S100000x5, .f32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S_, .i32⟩
  | .hbm, ⟨12, _⟩ => ⟨S16777216, .i32⟩
  | .hbm, ⟨13, _⟩ => ⟨S16777216, .i1⟩
  | .hbm, ⟨14, _⟩ => ⟨S_, .i32⟩
  | .hbm, ⟨15, _⟩ => ⟨S16777216, .i32⟩
  | .hbm, ⟨16, _⟩ => ⟨S16777216, .i32⟩
  | .hbm, ⟨17, _⟩ => ⟨S16777216, .i32⟩
  | .hbm, ⟨18, _⟩ => ⟨S16777216x1, .i32⟩
  | .hbm, ⟨19, _⟩ => ⟨S16777216x1, .i32⟩
  | .hbm, ⟨20, _⟩ => ⟨S16777216x2, .i32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S16777216, .f32⟩
  | .hbm, ⟨25, _⟩ => ⟨S16777216, .f32⟩
  | .hbm, ⟨26, _⟩ => ⟨S_, .f32⟩
  | .hbm, ⟨27, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x2_d1 : Shape.Concatenates [S16777216x1, S16777216x1] S16777216x2 1
  reducesTo_S16777216_S_d0 : S16777216.ReducesTo [0] S_
  h_S_ : 0 < S_.numel
  gather_S100000x5_S16777216x2_S16777216_n_01_n_n_01_1_11_wf : GatherDims.WF S100000x5 S16777216x2 S16777216 [] [0, 1] [] [0, 1] [] 1 ![1, 1]

variable [Facts₀]

def gather_S100000x5_S16777216x2_S16777216_n_01_n_n_01_1_11 : GatherDims S100000x5 S16777216x2 S16777216 where
  offsetDims := []
  collapsedSliceDims := [0, 1]
  operandBatchingDims := []
  startIndicesBatchingDims := []
  startIndexMap := [0, 1]
  indexVectorDim := 1
  sliceSizes := ![1, 1]
  wf := gather_S100000x5_S16777216x2_S16777216_n_01_n_n_01_1_11_wf

class Facts : Prop extends Facts₀ where

variable [Facts]
-- ==== Proof.BodyValue.lean ====
/-
  What one run of the kernel body leaves in the one-cell accumulator (and, at the last grid point, in the one-cell
  output), as a pure function of the three input blocks and of the accumulator's previous contents: in every control
  case it is the step's payload — previous cell plus the block's weighted squared error summed over rows and lanes.
-/
import proofs.«159234_j24163486007858_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- At a middle grid point the accumulator cell, holding `xs`, is overwritten once, with the step's payload of the
    three input blocks and `xs`. -/
theorem sout_B (c : Dev nD) (i : grid0.Coords) (a1 : Memref sig .tc .vmem S8192x128 .f32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i)
    (x0 : Vec F S8192x128 .f32) (x1 : Vec F S8192x128 .i32) (x2 : Vec F S8192x128 .f32) (xs : Vec F S1x1 .f32) :
    sout0_B_0 c i a1 h1 a2 h2 a3 h3 a4 h4 a5 h5 hc0 hc1 x0 x1 x2 xs = k0_pay2 x0 x1 x2 xs := by
  unfold sout0_B_0
  rw [View.read_writes_eq_canon _ _ _ (scover0_B_0 c i a1 h1 a2 h2 a3 h3 a4 h4 a5 h5 hc0 hc1 x0 x1 x2 xs)]
  unfold kernelRun0_B
  dsimp only
  rw [View.canon_unit_zero hz]
  simp only [View.readAt_eq_ld, h1.read_unread, h2.read_unread, h3.read_unread, h5.read_unread,
    View.ld_unit_zero (S := S8192x128) hz, View.ld_unit_zero (S := S1x1) hz]

/-- At the first grid point the accumulator cell is first reset to the zero cell, read back, and then overwritten with
    the step's payload of the three input blocks and that zero cell. -/
theorem sout_A (c : Dev nD) (i : grid0.Coords) (a1 : Memref sig .tc .vmem S8192x128 .f32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i)
    (x0 : Vec F S8192x128 .f32) (x1 : Vec F S8192x128 .i32) (x2 : Vec F S8192x128 .f32) :
    sout0_A_0 c i a1 h1 a2 h2 a3 h3 a4 h4 a5 h5 hc0 hc1 x0 x1 x2 = k0_pay2 x0 x1 x2 (k0_pay1 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S8192x128) hz]

/-- At the last grid point the accumulator cell is overwritten as at a middle point … -/
theorem sout_C (c : Dev nD) (i : grid0.Coords) (a1 : Memref sig .tc .vmem S8192x128 .f32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S8192x128 .f32) (x1 : Vec F S8192x128 .i32) (x2 : Vec F S8192x128 .f32) (xs : Vec F S1x1 .f32) :
    sout0_C_0 c i a1 h1 a2 h2 a3 h3 a4 h4 a5 h5 hc0 hc1 x0 x1 x2 xs = k0_pay2 x0 x1 x2 xs := by
  unfold sout0_C_0
  rw [View.read_writes_eq_canon _ _ _ (scover0_C_0 c i a1 h1 a2 h2 a3 h3 a4 h4 a5 h5 hc0 hc1 x0 x1 x2 xs)]
  unfold kernelRun0_C
  dsimp only
  sl_unfold_words
  rw [View.canon_unit_zero hz]
  simp only [View.readAt_eq_ld, h1.read_unread, h2.read_unread, h3.read_unread, h5.read_unread,
    View.ld_unit_zero (S := S8192x128) hz, View.ld_unit_zero (S := S1x1) hz]

/-- … and the output cell receives the accumulator cell's new contents, read back. -/
theorem out_C (c : Dev nD) (i : grid0.Coords) (a1 : Memref sig .tc .vmem S8192x128 .f32) (h1 : a1.IsWhole)
    (a2 : Memref sig .tc .vmem S8192x128 .i32) (h2 : a2.IsWhole) (a3 : Memref sig .tc .vmem S8192x128 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i)
    (x0 : Vec F S8192x128 .f32) (x1 : Vec F S8192x128 .i32) (x2 : Vec F S8192x128 .f32) (xs : Vec F S1x1 .f32) :
    out0_C_3 c i a1 h1 a2 h2 a3 h3 a4 h4 a5 h5 hc0 hc1 x0 x1 x2 xs = k0_pay2 x0 x1 x2 xs := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  rw [View.canon_unit_zero hz, View.readCov_unit_zero (S := S1x1) _ hz]
  simp only [View.readAt_eq_ld, h1.read_unread, h2.read_unread, h3.read_unread, h5.read_unread,
    View.ld_unit_zero (S := S8192x128) hz, View.ld_unit_zero (S := S1x1) hz]

end Cert.KernelIdeal.Body

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.Spec.lean ====
/-
  The loss, element by element.  One element contributes its weighted squared error
  `(o − label)·(o − label)·w`, the integer label read exactly as a real; the loss is the sum of the contributions of
  all 16777216 elements, a rank-0 array.
-/
import Idealize.ShloMosaic.PureOps.Ideal
import Idealize.ShloMosaic.Lib.ValueIdx

noncomputable section

namespace Cert.Spec

open Idealize.ShloMosaic Idealize.ShloMosaic.ValueIdx

/-- One element's contribution: the squared difference between the prediction `o` and the integer label, read as a
    real, times the weight `w` — multiplied in the order `((o − label)·(o − label))·w`. -/
def wse (o : EReal) (lab : BitVec 32) (w : EReal) : EReal :=
  (o - FloatOps.sitofp (F := Ideal) .f32 lab) * (o - FloatOps.sitofp (F := Ideal) .f32 lab) * w

/-- The loss of predictions `o`, labels `lab` and weights `w`: the sum of every element's contribution. -/
def loss (o : (⟨1, ![16777216]⟩ : Shape).Idx → EReal) (lab : (⟨1, ![16777216]⟩ : Shape).Idx → BitVec 32)
    (w : (⟨1, ![16777216]⟩ : Shape).Idx → EReal) : (⟨0, ![]⟩ : Shape).Idx → EReal :=
  fun _ => ∑ j : Fin 16777216, wse (o (ix1 j)) (lab (ix1 j)) (w (ix1 j))

/-- A sum over the indices of a rank-1 shape is the sum over its one coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n :=
    ⟨fun i => i 0, fun a => ix1 a, fun i => (eq_ix1 i).symm, fun _ => rfl⟩
  rw [← Equiv.sum_comp e.symm f]
  rfl

end Cert.Spec

end
-- ==== Proof.Payload.lean ====
/-
  The step's payload at the ideal values.  From one block of predictions, labels and weights (8192 rows of 128 lanes)
  and the accumulator cell `xs`, the body forms every element's weighted squared error, sums each row over its lanes,
  sums the rows, and adds the total to `xs`: the new cell is `xs + ∑ rows ∑ lanes (o − label)²·w`.
-/
import proofs.«159234_j24163486007858_1_alg».proof.Proof.Gen.KernelIdeal.Skeleton
import proofs.«159234_j24163486007858_1_alg».proof.Proof.LibColumnLayout
import proofs.«159234_j24163486007858_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.Spec

/-- A block's total: the weighted squared errors summed over the lanes of each row, then over the rows. -/
def blockSum (x0 : FVec Ideal S8192x128 .f32) (x1 : IVec S8192x128 32) (x2 : FVec Ideal S8192x128 .f32) : EReal :=
  ∑ r : Fin 8192, ∑ l : Fin 128, wse (x0 (ix2 r l)) (x1 (ix2 r l)) (x2 (ix2 r l))

/-- Summing a block along its lanes: row `r` of the result is the sum of the block's row `r`. -/
theorem laneSum_apply (v : FVec Ideal S8192x128 .f32) (r : Fin 8192) :
    multiReduction (F := Ideal) .add [1] S8192 v 0x00000000#32 reduces_S8192x128_S8192 (.inl rfl) rfl (ix1 r)
      = ∑ l : Fin 128, v (ix2 r l) := by
  refine (Ideal.multiReduction_add_single v 0x00000000#32 reduces_S8192x128_S8192 (.inl rfl) rfl (ix1 r)).trans ?_
  refine Finset.sum_congr rfl fun l _ => congrArg v ?_
  funext a
  match a with
  | ⟨0, _⟩ => rfl
  | ⟨1, _⟩ => rfl

/-- Summing the column of row sums: the one cell of the result is the sum over all rows. -/
theorem rowSum_apply (v : FVec Ideal S8192 .f32) (j : S1.Idx) :
    multiReduction (F := Ideal) .add [0] S1 (shapeCast S8192x1 v shapeCasts_S8192_S8192x1) 0x00000000#32 reduces_S8192x1_S1 (.inl rfl) rfl j
      = ∑ r : Fin 8192, v (ix1 r) := by
  refine (Ideal.multiReduction_add_total (shapeCast S8192x1 v shapeCasts_S8192_S8192x1) 0x00000000#32 reduces_S8192x1_S1
    (fun b => by match b with | ⟨0, _⟩ => rfl) (.inl rfl) rfl j).trans ?_
  rw [sum_idx2]
  refine Finset.sum_congr rfl fun r _ => ?_
  rw [Fin.sum_univ_one]
  exact PhysLoss.shapeCast_a_a1_apply v shapeCasts_S8192_S8192x1 r 0

/-- The one-cell vector recast as a one-by-one matrix keeps its cell. -/
theorem cell_apply (v : FVec Ideal S1 .f32) (y : S1x1.Idx) :
    shapeCast S1x1 v shapeCasts_S1_S1x1 y = v (ix1 0) :=
  shapeCast_apply v shapeCasts_S1_S1x1 y (ix1 0) (by
    rw [Shape.rowMajor_val_two, Shape.rowMajor_val_one]
    have h0 : (y 0).val < 1 := (y 0).isLt
    have h1 : (y 1).val < 1 := (y 1).isLt
    show (0 : ℕ) = (y 0).val * 1 + (y 1).val
    omega)

/-- The payload stored into the accumulator cell: the previous cell plus the block's total. -/
theorem pay2_apply (x0 : Vec Ideal S8192x128 .f32) (x1 : Vec Ideal S8192x128 .i32) (x2 : Vec Ideal S8192x128 .f32)
    (xs : Vec Ideal S1x1 .f32) (y : S1x1.Idx) :
    k0_pay2 (F := Ideal) x0 x1 x2 xs y = xs y + blockSum x0 x1 x2 := by
  unfold k0_pay2
  simp only [shapeCast_self]
  show xs y + shapeCast S1x1 _ shapeCasts_S1_S1x1 y = _
  rw [cell_apply, rowSum_apply]
  refine congrArg (xs y + ·) ?_
  unfold blockSum
  refine Finset.sum_congr rfl fun r _ => ?_
  rw [laneSum_apply]
  rfl

/-- The cell the first grid point resets the accumulator to is zero. -/
theorem pay1_apply (y : S1x1.Idx) : k0_pay1 (F := Ideal) y = 0 := by
  unfold k0_pay1
  simp only [shapeCast_self]
  exact Ideal.ofBits_zero_f32

end Cert.KernelIdeal.Payload

end
-- ==== Proof.Accum.lean ====
/-
  The accumulator cell across the grid.  After grid point `n` the cell holds the sum of the block totals of the points
  `0 … n`: the first point resets the cell to zero and adds its block's total, every later point adds its own to what
  the point before left.  By induction on the point, never by listing the grid.
-/
import proofs.«159234_j24163486007858_1_alg».proof.Proof.BodyValue
import proofs.«159234_j24163486007858_1_alg».proof.Proof.Payload

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Payload

variable (m : (ℓ : Loc nD τ sig) → Buf (Elt Ideal) ℓ)

/-- The total of the block the windows show at grid point `n` (zero past the grid's end). -/
def bs (c : Dev nD) (n : ℕ) : EReal :=
  if h : n < cfg0.N then blockSum (iblk m c 0 ⟨n, h⟩) (iblk m c 1 ⟨n, h⟩) (iblk m c 2 ⟨n, h⟩) else 0

/-- After grid point `n` the accumulator cell is the sum of the block totals up to `n`. -/
theorem cell_eq (c : Dev nD) : ∀ (n : ℕ) (h : n < cfg0.N) (y : S1x1.Idx),
    (outsAt0 m c n h).2 y = ∑ k ∈ Finset.range (n + 1), bs m c k
  | 0, h, y => by
    have e : (outsAt0 m c 0 h).2
        = k0_pay2 (F := Ideal) (iblk m c 0 ⟨0, h⟩) (iblk m c 1 ⟨0, h⟩) (iblk m c 2 ⟨0, h⟩) (k0_pay1 (F := Ideal)) :=
      by
        have e0 : outsAt0 m c 0 h = (_, _) := outsAt0_A m c ⟨0, h⟩ rfl (by show ¬ (0 % 16 = 15); decide)
        rw [e0]
        dsimp only
        exact Body.sout_A c _ _ _ _ _ _ _ _ _ _ _ _ _ (iblk m c 0 ⟨0, h⟩) (iblk m c 1 ⟨0, h⟩) (iblk m c 2 ⟨0, h⟩)
    rw [e, pay2_apply, pay1_apply, zero_add, Finset.sum_range_one, bs, dif_pos h]
  | n + 1, h, y => by
    have hN : cfg0.N = 16 := N_0
    have h0 : ¬(⟨n + 1, h⟩ : Fin cfg0.N).val % 16 = 0 := by dsimp only; omega
    have ih := cell_eq c n (Nat.lt_of_succ_lt h) y
    have e : (outsAt0 m c (n + 1) h).2
        = k0_pay2 (F := Ideal) (iblk m c 0 ⟨n + 1, h⟩) (iblk m c 1 ⟨n + 1, h⟩) (iblk m c 2 ⟨n + 1, h⟩)
            (outsAt0 m c n (Nat.lt_of_succ_lt h)).2 := by
      by_cases h1 : (⟨n + 1, h⟩ : Fin cfg0.N).val % 16 = 15
      · have e0 : outsAt0 m c (n + 1) h = (_, _) := outsAt0_C m c ⟨n + 1, h⟩ h0 h1
        rw [e0]
        dsimp only
        exact Body.sout_C c _ _ _ _ _ _ _ _ _ _ _ _ _ (iblk m c 0 ⟨n + 1, h⟩) (iblk m c 1 ⟨n + 1, h⟩) (iblk m c 2 ⟨n + 1, h⟩)
            (outsAt0 m c n (Nat.lt_of_succ_lt h)).2
      · have e0 : outsAt0 m c (n + 1) h = (_, _) := outsAt0_B m c ⟨n + 1, h⟩ h0 h1
        rw [e0]
        dsimp only
        exact Body.sout_B c _ _ _ _ _ _ _ _ _ _ _ _ _ (iblk m c 0 ⟨n + 1, h⟩) (iblk m c 1 ⟨n + 1, h⟩) (iblk m c 2 ⟨n + 1, h⟩)
            (outsAt0 m c n (Nat.lt_of_succ_lt h)).2
    rw [e, pay2_apply, ih, Finset.sum_range_succ _ (n + 1)]
    refine congrArg (_ + ·) ?_
    rw [bs, dif_pos h]

/-- At the last grid point the output cell receives the same value as the accumulator cell. -/
theorem out_eq (c : Dev nD) (h : 15 < cfg0.N) :
    (outsAt0 m c 15 h).1 = (outsAt0 m c 15 h).2 := by
  have h0 : ¬(⟨15, h⟩ : Fin cfg0.N).val % 16 = 0 := by show ¬ (15 % 16 = 0); decide
  have h1 : (⟨15, h⟩ : Fin cfg0.N).val % 16 = 15 := rfl
  have e : outsAt0 m c 15 h = (_, _) := outsAt0_C m c ⟨15, h⟩ h0 h1
  rw [e]
  dsimp only
  exact (Body.out_C c _ _ _ _ _ _ _ _ _ _ _ _ _ (iblk m c 0 ⟨15, h⟩) (iblk m c 1 ⟨15, h⟩) (iblk m c 2 ⟨15, h⟩) _).trans
    (Body.sout_C c _ _ _ _ _ _ _ _ _ _ _ _ _ (iblk m c 0 ⟨15, h⟩) (iblk m c 1 ⟨15, h⟩) (iblk m c 2 ⟨15, h⟩) _).symm

end Cert.KernelIdeal.Accum

end
-- ==== Proof.HostIn.lean ====
/-
  What the kernel's three input windows show.  Before the kernel runs, the host reshapes the predictions, the labels
  and the gathered weights from 16777216 elements to 131072 rows of 128 lanes; block `t` of a window is rows
  `8192·t … 8192·t + 8191`.  So row `r`, lane `l` of block `t` is element `(8192·t + r)·128 + l` of the flat array.
-/
import proofs.«159234_j24163486007858_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.HostIn

open Cert.KernelIdeal Cert.KernelIdeal.Gen

variable {F : FTy → Type} [FloatOps F]
variable (m : (ℓ : Loc nD τ sig) → Buf (Elt F) ℓ)

/-- The gathered weights: element `j` is the table `x2` read at row `x3 j` and column `x1 j`, a negative index first
    wrapped by the axis length (the host's index chain, then its gather). -/
def weights (x1 : IVec S16777216 32) (x2 : FVec F S100000x5 .f32) (x3 : IVec S16777216 32) : FVec F S16777216 .f32 :=
  Host.gather gather_S100000x5_S16777216x2_S16777216_n_01_n_n_01_1_11 x2
    (concatenate S16777216x2 1
      [⟨S16777216x1, (broadcastInDim S16777216x1 ![0] bcast_S16777216_S16777216x1_0
          (select (cmpi .slt x3 (broadcastInDim S16777216 ![] bcast_S_S16777216 (constantI S_ 32 0#32)))
            (addi x3 (broadcastInDim S16777216 ![] bcast_S_S16777216 (constantI S_ 32 100000#32))) x3))⟩,
       ⟨S16777216x1, (broadcastInDim S16777216x1 ![0] bcast_S16777216_S16777216x1_0
          (select (cmpi .slt x1 (broadcastInDim S16777216 ![] bcast_S_S16777216 (constantI S_ 32 0#32)))
            (addi x1 (broadcastInDim S16777216 ![] bcast_S_S16777216 (constantI S_ 32 5#32))) x1))⟩]
      concatenates_S16777216x1_S16777216x1_S16777216x2_d1)

/-- Row `p`, lane `q` of the reshaped array is flat position `p·128 + q`. -/
theorem flat_lt (p : Fin 131072) (q : Fin 128) : p.val * 128 + q.val < 16777216 := by
  have := p.isLt; have := q.isLt; omega

/-- The reshape to 131072 × 128 reads the flat array at the same row-major position. -/
theorem reshape_apply {α : Type} (x : S16777216.Idx → α) (p : Fin 131072) (q : Fin 128) :
    shapeCast S131072x128 x shapeCasts_S16777216_S131072x128 (ix2 p q) = x (ix1 ⟨p.val * 128 + q.val, flat_lt p q⟩) :=
  shapeCast_apply x shapeCasts_S16777216_S131072x128 (ix2 p q) (ix1 ⟨p.val * 128 + q.val, flat_lt p q⟩) (by
    rw [Shape.rowMajor_val_two, Shape.rowMajor_val_one]
    rfl)

set_option maxHeartbeats 4000000 in
/-- Window 0's array is the predictions, reshaped. -/
theorem V_pred (c : Dev nD) : (V m c main_v14 : S131072x128.Idx → F .f32)
    = shapeCast S131072x128 (m ((c : Thread nD τ).loc main_arg0)) shapeCasts_S16777216_S131072x128 := by
  show StableHlo.after hostOps0 (fun b => m (c, b)) (Proc.devRef .tc main_v14) = _
  after_results
  rfl

set_option maxHeartbeats 4000000 in
/-- Window 1's array is the labels, reshaped. -/
theorem V_lab (c : Dev nD) : (V m c main_v15 : S131072x128.Idx → BitVec 32)
    = shapeCast S131072x128 (m ((c : Thread nD τ).loc main_arg1)) shapeCasts_S16777216_S131072x128 := by
  show StableHlo.after hostOps0 (fun b => m (c, b)) (Proc.devRef .tc main_v15) = _
  after_results
  rfl

set_option maxHeartbeats 4000000 in
/-- Window 2's array is the gathered weights, reshaped. -/
theorem V_w (c : Dev nD) : (V m c main_v16 : S131072x128.Idx → F .f32)
    = shapeCast S131072x128 (weights (m ((c : Thread nD τ).loc main_arg1)) (m ((c : Thread nD τ).loc main_arg2))
        (m ((c : Thread nD τ).loc main_arg3))) shapeCasts_S16777216_S131072x128 := by
  show StableHlo.after hostOps0 (fun b => m (c, b)) (Proc.devRef .tc main_v16) = _
  after_results
  rfl

/-- Every input window's block index at grid point `t` is `(t, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0) :=
  (by decide +kernel : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0))

/-- Row `r`, lane `l` of block `t` sits at flat position `(8192·t + r)·128 + l`. -/
theorem pos_lt (t : Fin cfg0.N) (r : Fin 8192) (l : Fin 128) : (t.val * 8192 + r.val) * 128 + l.val < 16777216 := by
  have hN : cfg0.N = 16 := N_0
  have := t.isLt; have := r.isLt; have := l.isLt; omega

/-- Block `t` of the predictions' window. -/
theorem iblk0_apply (c : Dev nD) (t : Fin cfg0.N) (r : Fin 8192) (l : Fin 128) :
    (iblk m c 0 t : Vec F S8192x128 .f32) (ix2 r l)
      = m ((c : Thread nD τ).loc main_arg0) (ix1 ⟨(t.val * 8192 + r.val) * 128 + l.val, pos_lt t r l⟩) := by
  unfold iblk
  rw [View.read_apply]
  show V m c main_v14 _ = _
  rw [V_pred]
  refine (shapeCast_apply _ shapeCasts_S16777216_S131072x128 _ (ix1 ⟨_, pos_lt t r l⟩) ?_)
  rw [Shape.rowMajor_val_two, Shape.rowMajor_val_one]
  show (t.val * 8192 + r.val) * 128 + l.val
    = (win0_0.index t 0 * 8192 + 1 * r.val) * 128 + (win0_0.index t 1 * 128 + 1 * l.val)
  rw [(idx_facts t).1.1, (idx_facts t).1.2]
  omega

/-- Block `t` of the labels' window. -/
theorem iblk1_apply (c : Dev nD) (t : Fin cfg0.N) (r : Fin 8192) (l : Fin 128) :
    (iblk m c 1 t : Vec F S8192x128 .i32) (ix2 r l)
      = m ((c : Thread nD τ).loc main_arg1) (ix1 ⟨(t.val * 8192 + r.val) * 128 + l.val, pos_lt t r l⟩) := by
  unfold iblk
  rw [View.read_apply]
  show V m c main_v15 _ = _
  rw [V_lab]
  refine (shapeCast_apply _ shapeCasts_S16777216_S131072x128 _ (ix1 ⟨_, pos_lt t r l⟩) ?_)
  rw [Shape.rowMajor_val_two, Shape.rowMajor_val_one]
  show (t.val * 8192 + r.val) * 128 + l.val
    = (win0_1.index t 0 * 8192 + 1 * r.val) * 128 + (win0_1.index t 1 * 128 + 1 * l.val)
  rw [(idx_facts t).2.1.1, (idx_facts t).2.1.2]
  omega

/-- Block `t` of the weights' window. -/
theorem iblk2_apply (c : Dev nD) (t : Fin cfg0.N) (r : Fin 8192) (l : Fin 128) :
    (iblk m c 2 t : Vec F S8192x128 .f32) (ix2 r l)
      = weights (m ((c : Thread nD τ).loc main_arg1)) (m ((c : Thread nD τ).loc main_arg2)) (m ((c : Thread nD τ).loc main_arg3))
          (ix1 ⟨(t.val * 8192 + r.val) * 128 + l.val, pos_lt t r l⟩) := by
  unfold iblk
  rw [View.read_apply]
  show V m c main_v16 _ = _
  rw [V_w]
  refine (shapeCast_apply _ shapeCasts_S16777216_S131072x128 _ (ix1 ⟨_, pos_lt t r l⟩) ?_)
  rw [Shape.rowMajor_val_two, Shape.rowMajor_val_one]
  show (t.val * 8192 + r.val) * 128 + l.val
    = (win0_2.index t 0 * 8192 + 1 * r.val) * 128 + (win0_2.index t 1 * 128 + 1 * l.val)
  rw [(idx_facts t).2.2.1, (idx_facts t).2.2.2]
  omega

end Cert.KernelIdeal.HostIn

end
-- ==== Proof.SumLaw.lean ====
/-
  Regrouping a finite sum.  In a commutative additive monoid (the extended reals under addition are one: their
  addition is commutative and associative at the infinities too, so no finiteness is asked of the terms), the sum
  over the positions `0 ≤ j < a·b·c` of a flat array is the iterated sum over blocks `t < a`, rows `r < b` and
  lanes `l < c` of the term at position `(t·b + r)·c + l`.
-/
import Mathlib.Algebra.BigOperators.Fin
import Mathlib.Logic.Equiv.Fin.Basic
import Mathlib.Tactic.Ring
import Mathlib.Tactic.Linarith

namespace Cert.SumLaw

open Finset

variable {M : Type*} [AddCommMonoid M]

/-- Row `p`, column `q` of an `a × b` grid sits at flat position `p·b + q < a·b`. -/
theorem flat2_lt {a b : ℕ} (p : Fin a) (q : Fin b) : p.val * b + q.val < a * b :=
  calc p.val * b + q.val < p.val * b + b := Nat.add_lt_add_left q.isLt _
    _ = (p.val + 1) * b := by ring
    _ ≤ a * b := Nat.mul_le_mul_right b p.isLt

/-- A sum over `Fin (a·b)` is the double sum over rows and columns, the term read at `p·b + q`. -/
theorem sum_fin_mul (a b : ℕ) (g : ℕ → M) :
    ∑ j : Fin (a * b), g j.val = ∑ p : Fin a, ∑ q : Fin b, g (p.val * b + q.val) := by
  rw [← Fintype.sum_prod_type', ← Equiv.sum_comp finProdFinEquiv]
  refine Finset.sum_congr rfl fun x _ => ?_
  obtain ⟨p, q⟩ := x
  show g (q.val + b * p.val) = g (p.val * b + q.val)
  congr 1
  ring

/-- A sum over `Fin n` with `n = a·b·c` is the triple sum over blocks, rows and lanes, the term read at
    `(t·b + r)·c + l`. -/
theorem sum_fin_mul3 (a b c n : ℕ) (hn : n = a * b * c) (g : ℕ → M) :
    ∑ j : Fin n, g j.val = ∑ t : Fin a, ∑ r : Fin b, ∑ l : Fin c, g ((t.val * b + r.val) * c + l.val) := by
  subst hn
  rw [sum_fin_mul (a * b) c g, sum_fin_mul a b (fun k => ∑ l : Fin c, g (k * c + l.val))]

end Cert.SumLaw
-- ==== Proof.Final.lean ====
/-
  The kernel program's result.  The sixteen block totals, regrouped, are the flat sum over all 16777216 elements: the
  loss.  The accumulator cell holds them after the last grid point, the output cell receives it there and is written
  back once, and the host recasts the one-cell array to the scalar result.
-/
import proofs.«159234_j24163486007858_1_alg».proof.Proof.Accum
import proofs.«159234_j24163486007858_1_alg».proof.Proof.HostIn
import proofs.«159234_j24163486007858_1_alg».proof.Proof.SumLaw

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Payload Cert.KernelIdeal.Accum Cert.KernelIdeal.HostIn Cert.Spec Cert.SumLaw

variable (m : (ℓ : Loc nD τ sig) → Buf (Elt Ideal) ℓ) (ρ : Dev nD → PrngReg)

/-- The contribution of the element at flat position `k` (zero past the arrays' end). -/
def g (c : Dev nD) (k : ℕ) : EReal :=
  if h : k < 16777216 then
    wse (m ((c : Thread nD τ).loc main_arg0) (ix1 ⟨k, h⟩)) (m ((c : Thread nD τ).loc main_arg1) (ix1 ⟨k, h⟩))
      (weights (F := Ideal) (m ((c : Thread nD τ).loc main_arg1)) (m ((c : Thread nD τ).loc main_arg2))
        (m ((c : Thread nD τ).loc main_arg3)) (ix1 ⟨k, h⟩))
  else 0

/-- The total of the block at grid point `n` is the sum of the contributions at positions `(8192·n + r)·128 + l`. -/
theorem bs_eq (c : Dev nD) (n : ℕ) (h : n < cfg0.N) :
    bs m c n = ∑ r : Fin 8192, ∑ l : Fin 128, g m c ((n * 8192 + r.val) * 128 + l.val) := by
  unfold bs
  rw [dif_pos h]
  unfold blockSum
  refine Finset.sum_congr rfl fun r _ => Finset.sum_congr rfl fun l _ => ?_
  rw [iblk0_apply m c ⟨n, h⟩ r l, iblk1_apply m c ⟨n, h⟩ r l, iblk2_apply m c ⟨n, h⟩ r l]
  unfold g
  rw [dif_pos (pos_lt ⟨n, h⟩ r l)]

/-- The loss of the kernel's arguments, the weights being the host's gather. -/
abbrev kloss (c : Dev nD) : S_.Idx → EReal :=
  loss (m ((c : Thread nD τ).loc main_arg0)) (m ((c : Thread nD τ).loc main_arg1))
    (weights (F := Ideal) (m ((c : Thread nD τ).loc main_arg1)) (m ((c : Thread nD τ).loc main_arg2)) (m ((c : Thread nD τ).loc main_arg3)))

/-- The sixteen block totals add up to the loss: the flat sum regrouped by block, row and lane. -/
theorem total_eq (c : Dev nD) (i : S_.Idx) : ∑ k ∈ Finset.range 16, bs m c k = kloss m c i := by
  rw [Finset.sum_range]
  show _ = ∑ j : Fin 16777216, wse _ _ _
  have e : ∀ j : Fin 16777216,
      wse (m ((c : Thread nD τ).loc main_arg0) (ix1 j)) (m ((c : Thread nD τ).loc main_arg1) (ix1 j))
        (weights (F := Ideal) (m ((c : Thread nD τ).loc main_arg1)) (m ((c : Thread nD τ).loc main_arg2))
          (m ((c : Thread nD τ).loc main_arg3)) (ix1 j)) = g m c j.val := fun j => by
    unfold g; rw [dif_pos j.isLt]
  rw [Finset.sum_congr rfl fun j _ => e j, sum_fin_mul3 16 8192 128 16777216 (by norm_num) (g m c)]
  refine Finset.sum_congr rfl fun t _ => ?_
  exact bs_eq m c t.val (lt_of_lt_of_eq t.isLt N_0.symm)

/-- The one-cell result array: the sum of the sixteen block totals. -/
def cell (c : Dev nD) : Buf (Elt Ideal) ((c : Thread nD τ).loc main_v17) := fun _ => (∑ k ∈ Finset.range 16, bs m c k : EReal)

/-- The one write-back, at the last grid point, writes that cell: the output cell there equals the accumulator
    cell, which holds all sixteen block totals. -/
theorem flushed_eq (c : Dev nD) (t : Fin cfg0.N) (hf : (cfg0.win 3).flush t = true) :
    (dats m 0 c).flushed 3 t = ((cfg0.win 3).blk t).view.read (Elt Ideal) (cell m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3]
  have e : (outsAt0 m c 15 (by rw [hN]; decide)).1 = fun _ => (∑ k ∈ Finset.range 16, bs m c k : EReal) := by
    rw [out_eq m c]
    funext y
    exact cell_eq m c 15 _ y
  funext y
  rw [View.read_apply, cast_eq]
  show (cfg0.win 3).cut (grid0.coords t0_15) (outsAt0 m c 15 _).1 y = _
  rw [e]
  rfl

/-- The last grid point's block is the whole one-cell array, so the array ends holding that cell. -/
theorem final17 (c : Dev nD) : (dats m 0 c).arrAt 3 cfg0.N = cell m c :=
  (dats m 0 c).arrAt_eq_of_cover 3 (cell m c) (flushed_eq m c) fun i =>
    ⟨t0_15, (flush0_3 t0_15).mpr rfl, by
      show i ∈ ((View.whole main_v17).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat)
          ∧ (i 0 : Nat) < win0_3.index t0_15 0 * win0_3.size 0 + win0_3.xsize (grid0.coords t0_15) 0
        rw [show win0_3.index t0_15 0 * win0_3.size 0 = 0 from by decide +kernel,
          show win0_3.xsize (grid0.coords t0_15) 0 = 1 from by decide +kernel]
        omega
      | ⟨1, _⟩ =>
        show win0_3.index t0_15 1 * win0_3.size 1 ≤ (i 1 : Nat)
          ∧ (i 1 : Nat) < win0_3.index t0_15 1 * win0_3.size 1 + win0_3.xsize (grid0.coords t0_15) 1
        rw [show win0_3.index t0_15 1 * win0_3.size 1 = 0 from by decide +kernel,
          show win0_3.xsize (grid0.coords t0_15) 1 = 1 from by decide +kernel]
        omega⟩

/-- After the kernel the host recasts the one-cell array to a scalar: the program's result is the loss. -/
theorem tail_eq (c : Dev nD) :
    Pipeline.afterTail₀ cfgs (dats m) 0 (V0 m) [hostOps1] c main_v18 = kloss m c := by
  unfold Pipeline.afterTail₀
  show StableHlo.after hostOps1 _ (Proc.devRef .tc main_v18) = _
  after_results
  funext i
  rw [show Pipeline.withArrays (cfgs 0).spec c (V0 m c) (fun w => (dats m 0 c).arrAt w (cfgs 0).N)
      (Proc.devRef .tc main_v17) = cell m c from
    (Pipeline.withArrays_arr spec0 launch0.win.arr_inj c _ _ 3).trans (final17 m c)]
  show shapeCast S_ (cell m c) shapeCasts_S1x1_S_ i = _
  unfold shapeCast
  exact total_eq m c i

/-- The kernel program's run, read: every weakly fair execution ends with the result at the loss of the arguments
    and the arguments unchanged. -/
theorem run : θ_run defs (onTc (τ := τ) (main (F := Ideal))) ⟨m, fun _ => 0, ρ⟩ fun r => ∀ c : Dev nD,
      r.2.mem ((c.tc : Thread nD τ).loc main_v18) = kloss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v18 (Pipeline.mem_restRefs_of main_v18 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefValue.lean ====
/-
  The reference at the ideal values.  Its result is the host's sum, from zero, over all elements of
  `((o − label)·(o − label))·w` with `w` the gathered weights: the loss of the three arrays.
-/
import proofs.«159234_j24163486007858_1_alg».proof.Proof.Gen.ReferenceIdeal.Read
import proofs.«159234_j24163486007858_1_alg».proof.Proof.Spec

noncomputable section

open Idealize.ShloMosaic Idealize.ShloMosaic.ValueIdx

namespace Cert.ReferenceIdeal.RefValue

open Cert.ReferenceIdeal Cert.ReferenceIdeal.Read Cert.Spec

/-- The reference's result is the loss of its arguments, the weights being the host's gather. -/
theorem result_eq (x0 : (⟨S16777216, .f32⟩ : BufTy).Contents (Elt Ideal)) (x1 : (⟨S16777216, .i32⟩ : BufTy).Contents (Elt Ideal))
    (x2 : (⟨S100000x5, .f32⟩ : BufTy).Contents (Elt Ideal)) (x3 : (⟨S16777216, .i32⟩ : BufTy).Contents (Elt Ideal)) :
    val_main_v18 (F := Ideal) x0 x1 x2 x3 = loss x0 x1 (val_main_v13 (F := Ideal) x1 x2 x3) := by
  funext i
  rw [val_main_v18_apply, sum_idx1]
  show Ideal.ofBits .f32 0x00000000#32 + _ = _
  rw [Ideal.ofBits_zero_f32, zero_add]
  rfl

end Cert.ReferenceIdeal.RefValue

end
-- ==== Proof.lean ====
/-
  The weighted squared-error loss `∑ᵢ (outputᵢ − labelᵢ)²·wᵢ`, with `wᵢ` gathered from a table at `(itemᵢ, labelᵢ)`,
  computed two ways over the extended reals.  The reference sums all 16777216 terms in one host reduction from zero.
  The kernel program gathers the same weights on the host, reshapes the three arrays to 131072 rows of 128 lanes, and
  runs sixteen grid points: each sums its block of 8192 rows over lanes, then over rows, and adds the total into a
  one-cell accumulator that the first point resets to zero; the last point copies the accumulator to the one-cell
  output, which the host recasts to a scalar.  Addition of extended reals is commutative and associative — at the
  infinities too — so regrouping the flat sum by block, row and lane changes nothing and the finiteness of the inputs is
  never used.  Both programs form each term by the same operations in the same order, and the two gathers are one
  term.
-/
import proofs.«159234_j24163486007858_1_alg».proof.Defs
import proofs.«159234_j24163486007858_1_alg».proof.Proof.Gen.Kernel
import proofs.«159234_j24163486007858_1_alg».proof.Proof.Gen.Kernel.Skeleton
import proofs.«159234_j24163486007858_1_alg».proof.Proof.Gen.Kernel.Launch
import proofs.«159234_j24163486007858_1_alg».proof.Proof.Gen.Kernel.Points
import proofs.«159234_j24163486007858_1_alg».proof.Proof.Gen.Kernel.Frame
import proofs.«159234_j24163486007858_1_alg».proof.Proof.Gen.KernelIdeal
import proofs.«159234_j24163486007858_1_alg».proof.Proof.Gen.KernelIdeal.Skeleton
import proofs.«159234_j24163486007858_1_alg».proof.Proof.Gen.KernelIdeal.Launch
import proofs.«159234_j24163486007858_1_alg».proof.Proof.Gen.KernelIdeal.Points
import proofs.«159234_j24163486007858_1_alg».proof.Proof.Gen.KernelIdeal.Frame
import proofs.«159234_j24163486007858_1_alg».proof.Proof.Gen.ReferenceIdeal
import proofs.«159234_j24163486007858_1_alg».proof.Proof.Gen.Pre_finite_inputs
import proofs.«159234_j24163486007858_1_alg».proof.Proof.Gen.ReferenceIdeal.Run
import proofs.«159234_j24163486007858_1_alg».proof.Proof.Gen.ReferenceIdeal.Read
import proofs.«159234_j24163486007858_1_alg».proof.Proof.Final
import proofs.«159234_j24163486007858_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read at the ideal values. -/
theorem frame_ki : Cert.frame_KernelIdeal := fun m ρ _ => Cert.KernelIdeal.Gen.frame m ρ

/-- The reference is a straight line of host operations: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the loss of the arguments: the kernel program by regrouping the sum over its sixteen
    blocks, the reference directly; the gathered weights are the same term of the same arguments. -/
theorem algebraic : Cert.algebraic_KernelIdeal_ReferenceIdeal := by
  intro m ρ m' ρ' _ hagree
  refine ⟨fun c => Cert.KernelIdeal.Final.kloss m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
